-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) (main_arg3 : IVec S16x2048x2048 1) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .i32⟩
  | .hbm, ⟨5, _⟩ => ⟨S16x2048x128, .f32⟩
  | .hbm, ⟨6, _⟩ => ⟨S16x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x2048, .i32⟩
  | .local _ .vmem, ⟨7, _⟩ => ⟨S1x512x2048, .i32⟩
  | .local _ .vmem, ⟨8, _⟩ => ⟨S1x512x128, .f32⟩
  | .local _ .vmem, ⟨9, _⟩ => ⟨S1x512x128, .f32⟩
  | .local _ .vmem, ⟨10, _⟩ => ⟨S1x512x2048, .f32⟩
  | .local _ .vmem, ⟨11, _⟩ => ⟨S1x512x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S16x2048x128.size a
  hwx0_4 : ∀ i : grid0.Coords, EltTy.bits .f32 = 32 ∨ (Rect.block (s := S16x2048x128) S1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg2) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Attention.lean ====
/-
  Scaled dot-product attention with a boolean mask, as functions on the extended reals.

  For one query row `q` (128 numbers), the keys `k` (2048 rows of 128) and that row's mask bits:
    score s   = -∞ where the mask bit is set, else (Σ_d q d · k s d) · c,   c the f32 number nearest 1/√128;
    rowMax    = the maximum of the scores over s, from -∞;
    expo s    = exp (score s - rowMax);
    soft s    = expo s / Σ_s' expo s';
  and the output row is Σ_s soft s · v s d over the values `v`. The two whole-array results — the attention weights
  [16, 2048, 2048] and the output [16, 2048, 128] — apply this to row `q` of batch `b` of the query, the keys and values
  of batch `b`, and row `(b, q)` of the mask. Every row is computed from its own inputs alone; nothing here needs the
  inputs to be finite.
-/
import Idealize.ShloMosaic.PureOps.Ideal
import Idealize.ShloMosaic.Lib.ValueIdx

noncomputable section

namespace Cert.Attention

open Idealize.ShloMosaic Idealize.ShloMosaic.ValueIdx

/-- The f32 pattern of -∞. -/
abbrev negInf : EReal := Ideal.ofBits .f32 0xFF800000#32
/-- The f32 number nearest 1/√128, the scale both programs multiply the scores by. -/
abbrev scale : EReal := Ideal.ofBits .f32 0x3DB504F3#32

/-- The masked, scaled score of a query row against key row `s`. -/
def score (q : Fin 128 → EReal) (k : Fin 2048 → Fin 128 → EReal) (mk : Fin 2048 → BitVec 1) (s : Fin 2048) : EReal :=
  Scalar.select (mk s) negInf ((∑ d : Fin 128, q d * k s d) * scale)

/-- The maximum of a row, from -∞. -/
def rowMax (f : Fin 2048 → EReal) : EReal := (Finset.univ : Finset (Fin 2048)).fold max negInf f

/-- A row's exponentials, shifted by its maximum. -/
def expo (f : Fin 2048 → EReal) (s : Fin 2048) : EReal := Ideal.exp (f s - rowMax f)

/-- The softmax of a row. -/
def soft (f : Fin 2048 → EReal) (s : Fin 2048) : EReal := Ideal.div (expo f s) (∑ s' : Fin 2048, expo f s')

/-- The attention weight of key `s` for query row `q` of batch `b`. -/
def attnAt (Q K : (⟨3, ![16, 2048, 128]⟩ : Shape).Idx → EReal) (M : (⟨3, ![16, 2048, 2048]⟩ : Shape).Idx → BitVec 1)
    (b : Fin 16) (q s : Fin 2048) : EReal :=
  soft (score (fun d => Q (ix3 b q d)) (fun s' d => K (ix3 b s' d)) (fun s' => M (ix3 b q s'))) s

/-- The output entry `d` for query row `q` of batch `b`: the weights against column `d` of the values. -/
def outAt (V Q K : (⟨3, ![16, 2048, 128]⟩ : Shape).Idx → EReal) (M : (⟨3, ![16, 2048, 2048]⟩ : Shape).Idx → BitVec 1)
    (b : Fin 16) (q : Fin 2048) (d : Fin 128) : EReal :=
  ∑ s : Fin 2048, attnAt Q K M b q s * V (ix3 b s d)

/-- The attention weights as one array. -/
def attnG (Q K : (⟨3, ![16, 2048, 128]⟩ : Shape).Idx → EReal) (M : (⟨3, ![16, 2048, 2048]⟩ : Shape).Idx → BitVec 1) :
    (⟨3, ![16, 2048, 2048]⟩ : Shape).Idx → EReal :=
  fun i => attnAt Q K M (i 0) (i 1) (i 2)

/-- The output as one array. -/
def outG (V Q K : (⟨3, ![16, 2048, 128]⟩ : Shape).Idx → EReal) (M : (⟨3, ![16, 2048, 2048]⟩ : Shape).Idx → BitVec 1) :
    (⟨3, ![16, 2048, 128]⟩ : Shape).Idx → EReal :=
  fun i => outAt V Q K M (i 0) (i 1) (i 2)

theorem attnG_ix3 (Q K : (⟨3, ![16, 2048, 128]⟩ : Shape).Idx → EReal) (M : (⟨3, ![16, 2048, 2048]⟩ : Shape).Idx → BitVec 1)
    (b : Fin 16) (q s : Fin 2048) : attnG Q K M (ix3 b q s) = attnAt Q K M b q s := rfl

theorem outG_ix3 (V Q K : (⟨3, ![16, 2048, 128]⟩ : Shape).Idx → EReal) (M : (⟨3, ![16, 2048, 2048]⟩ : Shape).Idx → BitVec 1)
    (b : Fin 16) (q : Fin 2048) (d : Fin 128) : outG V Q K M (ix3 b q d) = outAt V Q K M b q d := rfl

/-- A one-bit word widened to 32 bits is nonzero exactly when the bit is set. -/
theorem cmpi_ne_setWidth (x : BitVec 1) : IntOp.cmpi .ne (x.setWidth 32) 0#32 = x := by
  rcases BitVec.eq_zero_or_eq_one x with h | h <;> subst h <;> decide

/-- -∞ is the least extended real: the maximum with it is the other number. -/
theorem max_negInf (x : EReal) : max negInf x = x := by
  show max (Ideal.ofBits .f32 0xFF800000#32) x = x
  simp [Ideal.ofBits, Ideal.ieee]

end Cert.Attention

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.KernelRows.lean ====
/-
  What the kernel's body computes for one block of 512 query rows, entry by entry.

  The body casts its blocks to matrices, multiplies the query block by the transposed key block on the matrix unit
  (into a zero accumulator; the bf16 roundings before it are the identity on exact values), scales, masks with -∞
  where the block's mask word is nonzero, takes each row's maximum, exponentials, sum and quotient, stores that as the
  block of attention weights, and multiplies it by the value block. Read at an entry this is the row softmax of the
  masked scores (`Cert.Attention.soft`, `score`) and its product with a column of the values.
-/
import proofs.«110951_j49074296324370_2_alg».proof.Proof.Gen.KernelIdeal.Skeleton
import proofs.«110951_j49074296324370_2_alg».proof.Proof.Attention
import proofs.«110951_j49074296324370_2_alg».proof.Proof.LibKeepdims
import proofs.«110951_j49074296324370_2_alg».proof.Proof.LibContractRows
import proofs.«110951_j49074296324370_2_alg».proof.Proof.LibContractPlain
import proofs.«110951_j49074296324370_2_alg».proof.Proof.LibBlockLayout
import Idealize.ShloMosaic.Lib.ValueLayout

noncomputable section

namespace Cert.KernelRows

open Cert.KernelIdeal Cert.KernelIdeal.Gen Idealize.ShloMosaic Idealize.ShloMosaic.ValueIdx Cert.Attention

/-! ## The row softmax of a 512 × 2048 matrix -/

/-- The body's lines from the row maximum to the quotient, as one function of the masked scores. -/
def softmaxRows (v16 : FVec Ideal S512x2048 .f32) : FVec Ideal S512x2048 .f32 :=
  have v17 : FVec Ideal S512 .f32 := multiReduction .maximumf [1] S512 v16 0xFF800000#32 reduces_S512x2048_S512 (.inl rfl) rfl
  have v18 : FVec Ideal S512x1 .f32 := shapeCast S512x1 v17 shapeCasts_S512_S512x1
  have v19 : FVec Ideal S512x2048 .f32 := broadcastTo S512x2048 v18 broadcasts_S512x1_S512x2048
  have v20 : FVec Ideal S512x2048 .f32 := subf v16 v19
  have v21 : FVec Ideal S512x2048 .f32 := exp v20
  have v22 : FVec Ideal S512 .f32 := multiReduction .add [1] S512 v21 0x00000000#32 reduces_S512x2048_S512 (.inl rfl) rfl
  have v23 : FVec Ideal S512x1 .f32 := shapeCast S512x1 v22 shapeCasts_S512_S512x1
  have v24 : FVec Ideal S512x2048 .f32 := broadcastTo S512x2048 v23 broadcasts_S512x1_S512x2048
  divf v21 v24

/-- A row's maximum, kept as a column and spread over the row, reads the fold of `max` from -∞ over the row. -/
theorem rowMax_spread (v16 : FVec Ideal S512x2048 .f32) (r : Fin 512) (j : Fin 2048) :
    broadcastTo S512x2048 (shapeCast S512x1 (multiReduction .maximumf [1] S512 v16 0xFF800000#32 reduces_S512x2048_S512 (.inl rfl) rfl)
      shapeCasts_S512_S512x1) broadcasts_S512x1_S512x2048 (ix2 r j) = rowMax (fun s => v16 (ix2 r s)) := by
  refine (Cert.Keepdims.broadcastTo_a1_ab_apply _ broadcasts_S512x1_S512x2048 r j).trans ?_
  refine (Cert.Keepdims.shapeCast_a_a1_apply _ shapeCasts_S512_S512x1 r (0 : Fin 1)).trans ?_
  exact Cert.BlockLayout.multiReduction_max_trailing2 v16 0xFF800000#32 reduces_S512x2048_S512 (.inl rfl) rfl r

/-- A row's sum, kept as a column and spread over the row, reads the sum over the row. -/
theorem rowSum_spread (v21 : FVec Ideal S512x2048 .f32) (r : Fin 512) (j : Fin 2048) :
    broadcastTo S512x2048 (shapeCast S512x1 (multiReduction .add [1] S512 v21 0x00000000#32 reduces_S512x2048_S512 (.inl rfl) rfl)
      shapeCasts_S512_S512x1) broadcasts_S512x1_S512x2048 (ix2 r j) = ∑ s : Fin 2048, v21 (ix2 r s) := by
  refine (Cert.Keepdims.broadcastTo_a1_ab_apply _ broadcasts_S512x1_S512x2048 r j).trans ?_
  refine (Cert.Keepdims.shapeCast_a_a1_apply _ shapeCasts_S512_S512x1 r (0 : Fin 1)).trans ?_
  exact Cert.BlockLayout.multiReduction_add_trailing2 v21 0x00000000#32 reduces_S512x2048_S512 (.inl rfl) rfl r

/-- The shifted exponential at an entry. -/
theorem expo_entry (v16 : FVec Ideal S512x2048 .f32) (r : Fin 512) (s : Fin 2048) :
    exp (subf v16 (broadcastTo S512x2048 (shapeCast S512x1 (multiReduction .maximumf [1] S512 v16 0xFF800000#32 reduces_S512x2048_S512 (.inl rfl) rfl)
      shapeCasts_S512_S512x1) broadcasts_S512x1_S512x2048)) (ix2 r s) = expo (fun s' => v16 (ix2 r s')) s := by
  show Ideal.exp (v16 (ix2 r s) - _) = Ideal.exp (v16 (ix2 r s) - rowMax (fun s' => v16 (ix2 r s')))
  rw [rowMax_spread v16 r s]

/-- Entry `(r, j)` of the body's softmax is the softmax of row `r` at `j`. -/
theorem softmaxRows_apply (v16 : FVec Ideal S512x2048 .f32) (r : Fin 512) (j : Fin 2048) :
    softmaxRows v16 (ix2 r j) = soft (fun s => v16 (ix2 r s)) j := by
  unfold softmaxRows soft
  show Ideal.div _ _ = _
  rw [expo_entry v16 r j, rowSum_spread _ r j]
  exact congrArg (Ideal.div _) (Finset.sum_congr rfl fun s _ => expo_entry v16 r s)

/-! ## The masked scores -/

/-- The body's lines up to the masked scores, as one function of the query, key and mask blocks. -/
def maskedScores (x0 : Vec Ideal S1x512x128 .f32) (x1 : Vec Ideal S1x2048x128 .f32) (x3 : Vec Ideal S1x512x2048 .i32) :
    FVec Ideal S512x2048 .f32 :=
  have v1 : FVec Ideal S512x128 .f32 := shapeCast S512x128 x0 shapeCasts_S1x512x128_S512x128
  have v2 : FVec Ideal S512x128 .bf16 := truncf .bf16 v1 bitsLt_bf16_f32
  have v4 : FVec Ideal S2048x128 .f32 := shapeCast S2048x128 x1 shapeCasts_S1x2048x128_S2048x128
  have v5 : FVec Ideal S2048x128 .bf16 := truncf .bf16 v4 bitsLt_bf16_f32
  have v10 : IVec S512x2048 32 := shapeCast S512x2048 x3 shapeCasts_S1x512x2048_S512x2048
  have cst : IVec S512x2048 32 := constantI S512x2048 32 0#32
  have v11 : IVec S512x2048 1 := cmpi .ne v10 cst
  have cst_11 : FVec Ideal S512x2048 .f32 := constant S512x2048 .f32 0x00000000#32
  have v12 : FVec Ideal S512x2048 .f32 := matmul dot_S512x128_S2048x128_S512x2048_1_1_0_0_n_n none v2 v5 cst_11
  have cst_12 : Ideal .f32 := Scalar.ofBits .f32 0x3DB504F3#32
  have v13 : FVec Ideal S512x2048 .f32 := broadcast S512x2048 cst_12
  have v14 : FVec Ideal S512x2048 .f32 := mulf v12 v13
  have cst_13 : Ideal .f32 := Scalar.ofBits .f32 0xFF800000#32
  have v15 : FVec Ideal S512x2048 .f32 := broadcast S512x2048 cst_13
  select v11 v15 v14

/-- The block of attention weights the body stores is the row softmax of the masked scores. -/
theorem pay2_eq (x0 : Vec Ideal S1x512x128 .f32) (x1 : Vec Ideal S1x2048x128 .f32) (x3 : Vec Ideal S1x512x2048 .i32) :
    k0_pay2 (F := Ideal) x0 x1 x3 = softmaxRows (maskedScores x0 x1 x3) := rfl

/-- Row `r` of the query block. -/
abbrev qRow (x0 : Vec Ideal S1x512x128 .f32) (r : Fin 512) : Fin 128 → EReal := fun d => x0 (ix3 (0 : Fin 1) r d)
/-- The key block's rows. -/
abbrev kRows (x1 : Vec Ideal S1x2048x128 .f32) : Fin 2048 → Fin 128 → EReal := fun s d => x1 (ix3 (0 : Fin 1) s d)
/-- Row `r` of the mask block: the bit "the word is nonzero". -/
abbrev mRow (x3 : Vec Ideal S1x512x2048 .i32) (r : Fin 512) : Fin 2048 → BitVec 1 :=
  fun s => IntOp.cmpi .ne (x3 (ix3 (0 : Fin 1) r s)) 0#32

/-- Entry `(r, s)` of the masked scores: row `r` of the query block against row `s` of the key block, scaled, or -∞. -/
theorem maskedScores_apply (x0 : Vec Ideal S1x512x128 .f32) (x1 : Vec Ideal S1x2048x128 .f32) (x3 : Vec Ideal S1x512x2048 .i32)
    (r : Fin 512) (s : Fin 2048) :
    maskedScores x0 x1 x3 (ix2 r s) = score (qRow x0 r) (kRows x1) (mRow x3 r) s := by
  unfold maskedScores score
  show Scalar.select (IntOp.cmpi .ne (shapeCast S512x2048 x3 shapeCasts_S1x512x2048_S512x2048 (ix2 r s)) 0#32) negInf
      (matmul (F := Ideal) dot_S512x128_S2048x128_S512x2048_1_1_0_0_n_n none
          (truncf .bf16 (shapeCast S512x128 x0 shapeCasts_S1x512x128_S512x128) bitsLt_bf16_f32)
          (truncf .bf16 (shapeCast S2048x128 x1 shapeCasts_S1x2048x128_S2048x128) bitsLt_bf16_f32)
          (constant (F := Ideal) S512x2048 .f32 0x00000000#32) (ix2 r s) * scale) = _
  rw [shapeCast_1ab_ab_apply x3 shapeCasts_S1x512x2048_S512x2048 r s]
  refine congrArg (fun z => Scalar.select _ negInf (z * scale)) ?_
  refine (Idealize.ShloMosaic.ContractRows.matmul_zero_apply none _ _ r s).trans ?_
  refine Finset.sum_congr rfl fun d _ => ?_
  show shapeCast S512x128 x0 shapeCasts_S1x512x128_S512x128 (ix2 r d)
      * shapeCast S2048x128 x1 shapeCasts_S1x2048x128_S2048x128 (ix2 s d) = _
  rw [shapeCast_1ab_ab_apply x0 shapeCasts_S1x512x128_S512x128 r d, shapeCast_1ab_ab_apply x1 shapeCasts_S1x2048x128_S2048x128 s d]

/-- Entry `(r, j)` of the stored block of attention weights. -/
theorem attnBlock_apply (x0 : Vec Ideal S1x512x128 .f32) (x1 : Vec Ideal S1x2048x128 .f32) (x3 : Vec Ideal S1x512x2048 .i32)
    (r : Fin 512) (j : Fin 2048) :
    k0_pay2 (F := Ideal) x0 x1 x3 (ix2 r j) = soft (score (qRow x0 r) (kRows x1) (mRow x3 r)) j := by
  rw [pay2_eq, softmaxRows_apply]
  exact congrArg (fun f => soft f j) (funext fun s => maskedScores_apply x0 x1 x3 r s)

/-- Entry `(r, d)` of the stored output block: the block of weights against column `d` of the value block. -/
theorem outBlock_apply (x0 : Vec Ideal S1x512x128 .f32) (x1 x2 : Vec Ideal S1x2048x128 .f32) (x3 : Vec Ideal S1x512x2048 .i32)
    (r : Fin 512) (d : Fin 128) :
    k0_pay4 (F := Ideal) x0 x1 x2 x3 (ix2 r d)
      = ∑ s : Fin 2048, soft (score (qRow x0 r) (kRows x1) (mRow x3 r)) s * x2 (ix3 (0 : Fin 1) s d) := by
  unfold k0_pay4
  refine (Cert.Lib.ContractPlain.matmulZero_apply dot_S512x2048_S2048x128_S512x128_1_0_0_1_n_n rfl none _ _ r d).trans ?_
  refine Finset.sum_congr rfl fun s _ => ?_
  show k0_pay2 (F := Ideal) x0 x1 x3 (ix2 r s) * shapeCast S2048x128 x2 shapeCasts_S1x2048x128_S2048x128 (ix2 s d) = _
  rw [attnBlock_apply x0 x1 x3 r s, shapeCast_1ab_ab_apply x2 shapeCasts_S1x2048x128_S2048x128 s d]

end Cert.KernelRows

end
-- ==== Proof.KernelArrays.lean ====
/-
  From blocks to arrays: what the kernel leaves in its two result arrays.

  The grid has a point per batch `b` and per tile of 512 query rows. At a point the query, mask, output and weight
  windows sit at block `(b, tile)`, the key and value windows at block `b` whole. So row `r` of the point's query block
  is row `512·tile + r` of batch `b` of the query, the key and value blocks are batch `b` of the keys and values, and the
  mask block's words are the mask bits of those rows widened to 32 bits (nonzero exactly where the bit is set). Hence
  what the point writes back is block `(b, tile)` of `attnG` and of `outG`; every index of either array lies in the block
  of the point `(i₀, i₁ / 512)`; and the arrays after the run are `attnG` and `outG` of the argument arrays.
-/
import proofs.«110951_j49074296324370_2_alg».proof.Proof.Gen.KernelIdeal.Value
import proofs.«110951_j49074296324370_2_alg».proof.Proof.KernelRows
import Idealize.ShloMosaic.Lib.Pipeline.Value
import Idealize.ShloMosaic.Lib.StableHlo.Run

noncomputable section

namespace Cert.KernelArrays

open Cert.KernelIdeal Cert.KernelIdeal.Gen Idealize.ShloMosaic Idealize.ShloMosaic.TcCoe Idealize.SL.Sem
open Idealize.ShloMosaic.ValueIdx Cert.Attention Cert.KernelRows
open Idealize.ShloMosaic.Pipeline (Dat)

variable (m : (ℓ : Loc nD τ sig) → Buf (Elt Ideal) ℓ) (ρ : Dev nD → PrngReg)

/-- The query, key, value and mask arrays as launched, on core `c`. -/
abbrev Qa (c : Dev nD) : (⟨3, ![16, 2048, 128]⟩ : Shape).Idx → EReal := m ((c : Thread nD τ).loc main_arg2)
abbrev Ka (c : Dev nD) : (⟨3, ![16, 2048, 128]⟩ : Shape).Idx → EReal := m ((c : Thread nD τ).loc main_arg1)
abbrev Va (c : Dev nD) : (⟨3, ![16, 2048, 128]⟩ : Shape).Idx → EReal := m ((c : Thread nD τ).loc main_arg0)
abbrev Ma (c : Dev nD) : (⟨3, ![16, 2048, 2048]⟩ : Shape).Idx → BitVec 1 := m ((c : Thread nD τ).loc main_arg3)

theorem hz3 : (![0, 0, 0] : Fin 3 → Nat) = fun _ => 0 := funext fun a => by fin_cases a <;> rfl

/-! ## What the body leaves in its two output buffers, entry by entry -/

/-- The weights' buffer after the body, at `(·, r, j)`: the softmax of row `r`'s masked scores at `j`. -/
theorem out5_apply (x0 : Vec Ideal S1x512x128 .f32) (x1 x2 : Vec Ideal S1x2048x128 .f32) (x3 : Vec Ideal S1x512x2048 .i32)
    (y : S1x512x2048.Idx) :
    out0_5 x0 x1 x2 x3 y = soft (score (qRow x0 (y 1)) (kRows x1) (mRow x3 (y 1))) (y 2) := by
  obtain ⟨u, r, j, rfl⟩ : ∃ (u : Fin 1) (r : Fin 512) (j : Fin 2048), y = ix3 u r j := ⟨y 0, y 1, y 2, eq_ix3 y⟩
  unfold out0_5
  simp only [View.ld_unit_zero (S := S1x512x128) hz3, View.ld_unit_zero (S := S1x2048x128) hz3,
    View.ld_unit_zero (S := S1x512x2048) hz3]
  refine (Cert.KernelIdeal.Value.canon5_eq x0 x1 x3 (ix3 u r j)).trans ?_
  show k0_pay2 (F := Ideal) x0 x1 x3 (Cert.KernelIdeal.Value.ix5_0 (ix3 u r j)) = _
  have e : Cert.KernelIdeal.Value.ix5_0 (ix3 u r j) = ix2 r j :=
    funext fun a => Fin.ext (by match a with | ⟨0, _⟩ => rfl | ⟨1, _⟩ => rfl)
  rw [e]
  exact attnBlock_apply x0 x1 x3 r j

/-- The output's buffer after the body, at `(·, r, d)`: row `r`'s weights against column `d` of the value block. -/
theorem out4_apply (x0 : Vec Ideal S1x512x128 .f32) (x1 x2 : Vec Ideal S1x2048x128 .f32) (x3 : Vec Ideal S1x512x2048 .i32)
    (y : S1x512x128.Idx) :
    out0_4 x0 x1 x2 x3 y
      = ∑ s : Fin 2048, soft (score (qRow x0 (y 1)) (kRows x1) (mRow x3 (y 1))) s * x2 (ix3 (0 : Fin 1) s (y 2)) := by
  obtain ⟨u, r, d, rfl⟩ : ∃ (u : Fin 1) (r : Fin 512) (d : Fin 128), y = ix3 u r d := ⟨y 0, y 1, y 2, eq_ix3 y⟩
  unfold out0_4
  simp only [View.ld_unit_zero (S := S1x512x128) hz3, View.ld_unit_zero (S := S1x2048x128) hz3,
    View.ld_unit_zero (S := S1x512x2048) hz3]
  refine (Cert.KernelIdeal.Value.canon4_eq x0 x1 x2 x3 (ix3 u r d)).trans ?_
  show k0_pay4 (F := Ideal) x0 x1 x2 x3 (Cert.KernelIdeal.Value.ix4_0 (ix3 u r d)) = _
  have e : Cert.KernelIdeal.Value.ix4_0 (ix3 u r d) = ix2 r d :=
    funext fun a => Fin.ext (by match a with | ⟨0, _⟩ => rfl | ⟨1, _⟩ => rfl)
  rw [e]
  exact outBlock_apply x0 x1 x2 x3 r d

/-! ## The windows' index maps over the grid -/

/-- Decided over the 64 points: the query, mask and weight windows move with the output window; the key and value
    windows follow its batch coordinate only; the trailing block coordinate is zero everywhere. -/
theorem idx_facts : ∀ t : Fin cfg0.N,
    win0_0.index t (0 : Fin 3) = win0_4.index t (0 : Fin 3) ∧ win0_0.index t (1 : Fin 3) = win0_4.index t (1 : Fin 3)
      ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
      ∧ win0_3.index t (2 : Fin 3) = 0
    ∧ win0_5.index t (0 : Fin 3) = win0_4.index t (0 : Fin 3) ∧ win0_5.index t (1 : Fin 3) = win0_4.index t (1 : Fin 3)
      ∧ win0_5.index t (2 : Fin 3) = 0
    ∧ win0_4.index t (2 : Fin 3) = 0 ∧ win0_4.index t (0 : Fin 3) ≤ 15 ∧ win0_4.index t (1 : Fin 3) ≤ 3 :=
  (by decide +kernel : ∀ t : Fin grid0.N, _)

/-- Every block `(b, tile)` is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-! ## The input windows' blocks, read off the argument arrays -/

/-- The mask window's array when the region is entered: the mask bits widened to 32 bits. -/
theorem V_mask (c : Dev nD) :
    (V m c main_v0 : S16x2048x2048.Idx → BitVec 32) = extui 32 (m ((c : Thread nD τ).loc main_arg3)) natLt_1_32 := by
  dsimp only [Gen.V, Gen.hostOps0]; after_results

/-- Entry `(·, r, d)` of the query block at point `t` is the query at `(i0, i1, d)`, for the row `i1` the block's row `r` is. -/
theorem qblk_apply (c : Dev nD) (t : Fin cfg0.N) (r : Fin 512) (d : Fin 128) (i0 : Fin 16) (i1 : Fin 2048)
    (h0 : i0.val = win0_0.index t (0 : Fin 3)) (h1 : i1.val = win0_0.index t (1 : Fin 3) * 512 + r.val)
    (h2 : win0_0.index t (2 : Fin 3) = 0) :
    iblk m c 0 t (ix3 (0 : Fin 1) r d) = Qa m c (ix3 i0 i1 d) := by
  show V m c main_arg2 (((cfg0.win 0).blk t).view.emb (ix3 (0 : Fin 1) r d)) = _
  rw [V_main_arg2]
  refine congrArg (Qa m c) (funext fun a => Fin.ext ?_)
  match a with
  | ⟨0, _⟩ => show win0_0.index t (0 : Fin 3) * 1 + 1 * 0 = i0.val; omega
  | ⟨1, _⟩ => show win0_0.index t (1 : Fin 3) * 512 + 1 * r.val = i1.val; omega
  | ⟨2, _⟩ => show win0_0.index t (2 : Fin 3) * 128 + 1 * d.val = d.val; omega

/-- Entry `(·, s, d)` of the key block at point `t` is the key at `(i0, s, d)`. -/
theorem kblk_apply (c : Dev nD) (t : Fin cfg0.N) (s : Fin 2048) (d : Fin 128) (i0 : Fin 16)
    (h0 : i0.val = win0_1.index t (0 : Fin 3)) (h1 : win0_1.index t (1 : Fin 3) = 0) (h2 : win0_1.index t (2 : Fin 3) = 0) :
    iblk m c 1 t (ix3 (0 : Fin 1) s d) = Ka m c (ix3 i0 s d) := by
  show V m c main_arg1 (((cfg0.win 1).blk t).view.emb (ix3 (0 : Fin 1) s d)) = _
  rw [V_main_arg1]
  refine congrArg (Ka m c) (funext fun a => Fin.ext ?_)
  match a with
  | ⟨0, _⟩ => show win0_1.index t (0 : Fin 3) * 1 + 1 * 0 = i0.val; omega
  | ⟨1, _⟩ => show win0_1.index t (1 : Fin 3) * 2048 + 1 * s.val = s.val; omega
  | ⟨2, _⟩ => show win0_1.index t (2 : Fin 3) * 128 + 1 * d.val = d.val; omega

/-- Entry `(·, s, d)` of the value block at point `t` is the value at `(i0, s, d)`. -/
theorem vblk_apply (c : Dev nD) (t : Fin cfg0.N) (s : Fin 2048) (d : Fin 128) (i0 : Fin 16)
    (h0 : i0.val = win0_2.index t (0 : Fin 3)) (h1 : win0_2.index t (1 : Fin 3) = 0) (h2 : win0_2.index t (2 : Fin 3) = 0) :
    iblk m c 2 t (ix3 (0 : Fin 1) s d) = Va m c (ix3 i0 s d) := by
  show V m c main_arg0 (((cfg0.win 2).blk t).view.emb (ix3 (0 : Fin 1) s d)) = _
  rw [V_main_arg0]
  refine congrArg (Va m c) (funext fun a => Fin.ext ?_)
  match a with
  | ⟨0, _⟩ => show win0_2.index t (0 : Fin 3) * 1 + 1 * 0 = i0.val; omega
  | ⟨1, _⟩ => show win0_2.index t (1 : Fin 3) * 2048 + 1 * s.val = s.val; omega
  | ⟨2, _⟩ => show win0_2.index t (2 : Fin 3) * 128 + 1 * d.val = d.val; omega

/-- The bit "word `(·, r, s)` of the mask block at point `t` is nonzero" is the mask bit at `(i0, i1, s)`. -/
theorem mblk_apply (c : Dev nD) (t : Fin cfg0.N) (r : Fin 512) (s : Fin 2048) (i0 : Fin 16) (i1 : Fin 2048)
    (h0 : i0.val = win0_3.index t (0 : Fin 3)) (h1 : i1.val = win0_3.index t (1 : Fin 3) * 512 + r.val)
    (h2 : win0_3.index t (2 : Fin 3) = 0) :
    IntOp.cmpi .ne (iblk m c 3 t (ix3 (0 : Fin 1) r s)) 0#32 = Ma m c (ix3 i0 i1 s) := by
  show IntOp.cmpi .ne ((V m c main_v0 : S16x2048x2048.Idx → BitVec 32) (((cfg0.win 3).blk t).view.emb (ix3 (0 : Fin 1) r s))) 0#32 = _
  rw [V_mask]
  show IntOp.cmpi .ne ((Ma m c (((cfg0.win 3).blk t).view.emb (ix3 (0 : Fin 1) r s))).setWidth 32) 0#32 = _
  rw [cmpi_ne_setWidth]
  refine congrArg (Ma m c) (funext fun a => Fin.ext ?_)
  match a with
  | ⟨0, _⟩ => show win0_3.index t (0 : Fin 3) * 1 + 1 * 0 = i0.val; omega
  | ⟨1, _⟩ => show win0_3.index t (1 : Fin 3) * 512 + 1 * r.val = i1.val; omega
  | ⟨2, _⟩ => show win0_3.index t (2 : Fin 3) * 2048 + 1 * s.val = s.val; omega

/-- Equal rows, keys, mask bits and position give equal softmax entries. -/
theorem soft_score_congr {q q' : Fin 128 → EReal} {k k' : Fin 2048 → Fin 128 → EReal} {mk mk' : Fin 2048 → BitVec 1}
    {s s' : Fin 2048} (hq : q = q') (hk : k = k') (hm : mk = mk') (hs : s = s') :
    soft (score q k mk) s = soft (score q' k' mk') s' := by
  subst hq hk hm hs; rfl

/-! ## What each point writes back -/

/-- Point `t` writes back block `t` of the attention weights `attnG`. -/
theorem flushed5_eq (c : Dev nD) (t : Fin cfg0.N) :
    (dats m 0 c).flushed 5 t = ((cfg0.win 5).blk t).view.read (Elt Ideal) (attnG (Qa m c) (Ka m c) (Ma m c)) := by
  rw [Cert.KernelIdeal.Value.flushed5]
  obtain ⟨q0, q1, q2, k0, k1, k2, v0, v1, v2, m0, m1, m2, a0, a1, a2, o2, b0, b1⟩ := idx_facts t
  funext y
  show out0_5 (iblk m c 0 t) (iblk m c 1 t) (iblk m c 2 t) (iblk m c 3 t) y
      = attnG (Qa m c) (Ka m c) (Ma m c) (((cfg0.win 5).blk t).view.emb y)
  refine (out5_apply (iblk m c 0 t) (iblk m c 1 t) (iblk m c 2 t) (iblk m c 3 t) y).trans ?_
  obtain ⟨i0, i1, i2, hi⟩ : ∃ (i0 : Fin 16) (i1 i2 : Fin 2048), ((cfg0.win 5).blk t).view.emb y = ix3 i0 i1 i2 :=
    ⟨_, _, _, eq_ix3 _⟩
  have e0 : i0.val = win0_5.index t (0 : Fin 3) * 1 + 1 * (y 0).val := (congrArg (fun i => (i 0).val) hi).symm
  have e1 : i1.val = win0_5.index t (1 : Fin 3) * 512 + 1 * (y 1).val := (congrArg (fun i => (i 1).val) hi).symm
  have e2 : i2.val = win0_5.index t (2 : Fin 3) * 2048 + 1 * (y 2).val := (congrArg (fun i => (i 2).val) hi).symm
  have hy0 : (y 0).val < 1 := (y 0).isLt
  rw [hi, attnG_ix3]
  unfold attnAt
  exact soft_score_congr
    (funext fun d => qblk_apply m c t (y 1) d i0 i1 (by omega) (by omega) q2)
    (funext fun s => funext fun d => kblk_apply m c t s d i0 (by omega) k1 k2)
    (funext fun s => mblk_apply m c t (y 1) s i0 i1 (by omega) (by omega) m2)
    (Fin.ext (by omega))

/-- Point `t` writes back block `t` of the output `outG`. -/
theorem flushed4_eq (c : Dev nD) (t : Fin cfg0.N) :
    (dats m 0 c).flushed 4 t = ((cfg0.win 4).blk t).view.read (Elt Ideal) (outG (Va m c) (Qa m c) (Ka m c) (Ma m c)) := by
  rw [Cert.KernelIdeal.Value.flushed4]
  obtain ⟨q0, q1, q2, k0, k1, k2, v0, v1, v2, m0, m1, m2, a0, a1, a2, o2, b0, b1⟩ := idx_facts t
  funext y
  show out0_4 (iblk m c 0 t) (iblk m c 1 t) (iblk m c 2 t) (iblk m c 3 t) y
      = outG (Va m c) (Qa m c) (Ka m c) (Ma m c) (((cfg0.win 4).blk t).view.emb y)
  refine (out4_apply (iblk m c 0 t) (iblk m c 1 t) (iblk m c 2 t) (iblk m c 3 t) y).trans ?_
  obtain ⟨i0, i1, i2, hi⟩ : ∃ (i0 : Fin 16) (i1 : Fin 2048) (i2 : Fin 128), ((cfg0.win 4).blk t).view.emb y = ix3 i0 i1 i2 :=
    ⟨_, _, _, eq_ix3 _⟩
  have e0 : i0.val = win0_4.index t (0 : Fin 3) * 1 + 1 * (y 0).val := (congrArg (fun i => (i 0).val) hi).symm
  have e1 : i1.val = win0_4.index t (1 : Fin 3) * 512 + 1 * (y 1).val := (congrArg (fun i => (i 1).val) hi).symm
  have e2 : i2.val = win0_4.index t (2 : Fin 3) * 128 + 1 * (y 2).val := (congrArg (fun i => (i 2).val) hi).symm
  have hy0 : (y 0).val < 1 := (y 0).isLt
  rw [hi, outG_ix3]
  unfold outAt attnAt
  refine Finset.sum_congr rfl fun s _ => ?_
  have hw := soft_score_congr (s := s) (s' := s)
    (funext fun d => qblk_apply m c t (y 1) d i0 i1 (by omega) (by omega) q2)
    (funext fun s' => funext fun d => kblk_apply m c t s' d i0 (by omega) k1 k2)
    (funext fun s' => mblk_apply m c t (y 1) s' i0 i1 (by omega) (by omega) m2) rfl
  have hv : iblk m c 2 t (ix3 (0 : Fin 1) s (y 2)) = Va m c (ix3 i0 s i2) := by
    have e : (y 2 : Fin 128) = i2 := Fin.ext (by omega)
    exact (vblk_apply m c t s (y 2) i0 (by omega) v1 v2).trans (congrArg (fun z => Va m c (ix3 i0 s z)) e)
  rw [hw, hv]

/-! ## The blocks cover the arrays -/

/-- An index is in point `t`'s block of the weights iff each coordinate is in the block's range. -/
theorem mem_blk5 (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v1_1).slice (win0_5.rect t)).set ↔ _
  rw [View.set_slice_whole, Rect.mem_set_unit]
  exact Iff.rfl

/-- An index is in point `t`'s block of the output iff each coordinate is in the block's range. -/
theorem mem_blk4 (t : Fin cfg0.N) (i : S16x2048x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v1_0).slice (win0_4.rect t)).set ↔ _
  rw [View.set_slice_whole, Rect.mem_set_unit]
  exact Iff.rfl

/-- Every index of the weights lies in the block of the point `(i₀, i₁ / 512)`. -/
theorem cover5 (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have p0 : win0_4.index t (0 : Fin 3) = (i 0).val := congrFun ht 0
  have p1 : win0_4.index t (1 : Fin 3) = (i 1).val / 512 := congrFun ht 1
  obtain ⟨q0, q1, q2, k0, k1, k2, v0, v1, v2, m0, m1, m2, a0, a1, a2, o2, b0, b1⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every index of the output lies in the block of the point `(i₀, i₁ / 512)`. -/
theorem cover4 (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have p0 : win0_4.index t (0 : Fin 3) = (i 0).val := congrFun ht 0
  have p1 : win0_4.index t (1 : Fin 3) = (i 1).val / 512 := congrFun ht 1
  have p2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-! ## The arrays after the run -/

/-- The weights' array after the run is `attnG` of the query, the keys and the mask. -/
theorem final5 (c : Dev nD) : (dats m 0 c).arrAt 5 cfg0.N = attnG (Qa m c) (Ka m c) (Ma m c) :=
  (dats m 0 c).arrAt_eq_of_cover 5 (attnG (Qa m c) (Ka m c) (Ma m c)) (fun t _ => flushed5_eq m c t) cover5

/-- The output's array after the run is `outG` of the values, the query, the keys and the mask. -/
theorem final4 (c : Dev nD) : (dats m 0 c).arrAt 4 cfg0.N = outG (Va m c) (Qa m c) (Ka m c) (Ma m c) :=
  (dats m 0 c).arrAt_eq_of_cover 4 (outG (Va m c) (Qa m c) (Ka m c) (Ma m c)) (fun t _ => flushed4_eq m c t) cover4

/-- The kernel's run: every weakly fair execution ends with the two results at `outG` and `attnG` of the argument
    arrays, the arguments unchanged. -/
theorem run : θ_run defs (onTc (τ := τ) (main (F := Ideal))) ⟨m, fun _ => 0, ρ⟩ fun r => ∀ c : Dev nD,
      r.2.mem ((c : Thread nD τ).loc main_v1_0) = outG (Va m c) (Qa m c) (Ka m c) (Ma m c)
      ∧ r.2.mem ((c : Thread nD τ).loc main_v1_1) = attnG (Qa m c) (Ka m c) (Ma m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelArrays

end
-- ==== Proof.LibHostMaxTrailing.lean ====
/-
  The host's maximum over the trailing axis of a rank-3 array, read at an entry, at the exact values.

  A `stablehlo.reduce` with a `maximum` body over axis 2 of an array [a, b, c] gives, at `(p, q)`, the fold of `max`
  from the initial value's element over `k` of the source at `(p, q, k)`: `max` is commutative and associative, so the
  order in which the host combines the elements does not matter. (A row maximum as `jnp.max(x, axis=-1)` or the one
  inside `jax.nn.softmax` lowers to this.) The same for a rank-2 array [a, b] at `p`.
-/
import Idealize.ShloMosaic.PureOps.Reduce
import Idealize.ShloMosaic.PureOps.Ideal.Laws
import Idealize.ShloMosaic.Lib.ValueIdx

noncomputable section

namespace Cert.Lib.HostMaxTrailing

open Idealize.ShloMosaic Idealize.ShloMosaic.ValueIdx

/-- Reducing [a, b, c] over its trailing axis: the result index `(p, q)` with `k` put back on that axis is `(p, q, k)`. -/
theorem lift3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- The host's maximum of [a, b, c] over its trailing axis, at `(p, q)`: the fold of `max` from the initial value over
    the entries `(p, q, ·)`. -/
theorem hostMax_trailing3 {φ : FTy} {a b c : ℕ} {u : Shape} (y : FVec Ideal ⟨3, ![a, b, c]⟩ φ) (init : u.Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (q : Fin b) :
    Host.reduce FloatOps.maximumf y init h' hu (ix2 p q)
      = (Finset.univ : Finset (Fin c)).fold max (init (Shape.Idx.first hu)) (fun k => y (ix3 p q k)) := by
  refine (Host.reduce_eq_fold_single FloatOps.maximumf y init h' h hu (ix2 p q)).trans ?_
  exact congrArg (Finset.fold max _ · Finset.univ) (funext fun k => congrArg y (lift3 h p q k))

/-- Reducing [a, b] over its trailing axis: the result index `p` with `k` put back is `(p, k)`. -/
theorem lift2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- The host's maximum of [a, b] over its trailing axis, at `p`: the fold of `max` from the initial value over row `p`. -/
theorem hostMax_trailing2 {φ : FTy} {a b : ℕ} {u : Shape} (y : FVec Ideal ⟨2, ![a, b]⟩ φ) (init : u.Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce FloatOps.maximumf y init h' hu (ix1 p)
      = (Finset.univ : Finset (Fin b)).fold max (init (Shape.Idx.first hu)) (fun k => y (ix2 p k)) := by
  refine (Host.reduce_eq_fold_single FloatOps.maximumf y init h' h hu (ix1 p)).trans ?_
  exact congrArg (Finset.fold max _ · Finset.univ) (funext fun k => congrArg y (lift2 h p k))

end Cert.Lib.HostMaxTrailing

end
-- ==== Proof.RefRows.lean ====
/-
  The reference program, stage by stage, read at an entry `(b, q, s)`.

  Its masked scores at `(b, q, ·)` are the row `Cert.Attention.score` of query row `(b, q)`, the keys of batch `b` and mask
  row `(b, q)`; its row maximum is the fold of `max` from -∞ over that row (and the further maximum with -∞ changes
  nothing); the exponentials, their sum from zero, and the quotient are the row's softmax; the last contraction is the
  weights against a column of the values of batch `b`. So its two results are `attnG` and `outG`.
-/
import proofs.«110951_j49074296324370_2_alg».proof.Proof.Gen.ReferenceIdeal.Read
import proofs.«110951_j49074296324370_2_alg».proof.Proof.Attention
import proofs.«110951_j49074296324370_2_alg».proof.Proof.LibHostMaxTrailing

noncomputable section

namespace Cert.RefRows

open Cert.ReferenceIdeal Cert.ReferenceIdeal.Gen Cert.ReferenceIdeal.Read Idealize.ShloMosaic Idealize.ShloMosaic.ValueIdx
open Cert.Attention

/-- The masked scores of query row `(b, q)`: `x2` the query, `x1` the keys, `x3` the mask. -/
abbrev rsc (x1 x2 : (⟨S16x2048x128, .f32⟩ : BufTy).Contents (Elt Ideal)) (x3 : (⟨S16x2048x2048, .i1⟩ : BufTy).Contents (Elt Ideal))
    (b : Fin 16) (q : Fin 2048) : Fin 2048 → EReal :=
  score (fun d => x2 (ix3 b q d)) (fun s d => x1 (ix3 b s d)) (fun s => x3 (ix3 b q s))

variable (x0 x1 x2 : (⟨S16x2048x128, .f32⟩ : BufTy).Contents (Elt Ideal)) (x3 : (⟨S16x2048x2048, .i1⟩ : BufTy).Contents (Elt Ideal))

/-- The masked scores at `(b, q, s)`. -/
theorem v3_at (b : Fin 16) (q s : Fin 2048) : val_main_v3 (F := Ideal) x1 x2 x3 (ix3 b q s) = rsc x1 x2 x3 b q s := by
  rw [val_main_v3_apply, val_main_call0_v1_apply, val_main_call0_v0_apply, val_main_cst_0_apply, val_main_v2_apply,
    val_main_v0_apply, val_main_v1_apply, val_main_cst_apply]
  show Scalar.select (x3 (ix3 b q s)) negInf
      ((∑ k : Fin 128, x2 (lidx_main_v0 (ix3 b q s) k) * x1 (ridx_main_v0 (ix3 b q s) k)) * scale) = _
  show _ = Scalar.select (x3 (ix3 b q s)) negInf ((∑ d : Fin 128, x2 (ix3 b q d) * x1 (ix3 b s d)) * scale)
  refine congrArg (fun z => Scalar.select (x3 (ix3 b q s)) negInf (z * scale)) ?_
  refine Finset.sum_congr rfl fun k _ => ?_
  have e1 : lidx_main_v0 (ix3 b q s) k = ix3 b q k :=
    funext fun a => Fin.ext (by match a with | ⟨0, _⟩ => rfl | ⟨1, _⟩ => rfl | ⟨2, _⟩ => rfl)
  have e2 : ridx_main_v0 (ix3 b q s) k = ix3 b s k :=
    funext fun a => Fin.ext (by match a with | ⟨0, _⟩ => rfl | ⟨1, _⟩ => rfl | ⟨2, _⟩ => rfl)
  rw [e1, e2]

/-- The trailing axis of [16, 2048, 2048] reduces to [16, 2048]. -/
theorem reduces_trailing : S16x2048x2048.Reduces [(2 : Fin 3)] S16x2048 := by decide

/-- The host's maximum over the trailing axis from -∞, at `(b, q)`: the fold of `max` over the row's entries. -/
theorem hostMax_at (y : FVec Ideal S16x2048x2048 .f32) (b : Fin 16) (q : Fin 2048) :
    Host.reduce FloatOps.maximumf y (val_main_cst_1 (F := Ideal)) reducesTo_S16x2048x2048_S16x2048_d2 h_S_ (ix2 b q)
      = rowMax (fun k => y (ix3 b q k)) := by
  exact Cert.Lib.HostMaxTrailing.hostMax_trailing3 y _ reducesTo_S16x2048x2048_S16x2048_d2 reduces_trailing h_S_ b q

/-- The row maximum at `(b, q)`: the fold of `max` from -∞ over the row's scores. -/
theorem v4_at (b : Fin 16) (q : Fin 2048) : val_main_v4 (F := Ideal) x1 x2 x3 (ix2 b q) = rowMax (rsc x1 x2 x3 b q) := by
  unfold val_main_v4
  refine (hostMax_at _ b q).trans ?_
  exact congrArg rowMax (funext fun k => v3_at x1 x2 x3 b q k)

/-- The maximum the reference subtracts, spread back over the row. -/
theorem v8_at (b : Fin 16) (q s : Fin 2048) : val_main_v8 (F := Ideal) x1 x2 x3 (ix3 b q s) = rowMax (rsc x1 x2 x3 b q) := by
  rw [val_main_v8_apply, val_main_v7_apply]
  have e : idx_main_v7 (idx_main_v8 (ix3 b q s)) = ix2 b q :=
    funext fun a => Fin.ext (by match a with | ⟨0, _⟩ => rfl | ⟨1, _⟩ => rfl)
  rw [e, val_main_v6_apply, val_main_v5_apply, val_main_cst_2_apply, v4_at]
  exact max_negInf _

/-- The shifted exponential at `(b, q, s)`. -/
theorem v10_at (b : Fin 16) (q s : Fin 2048) : val_main_v10 (F := Ideal) x1 x2 x3 (ix3 b q s) = expo (rsc x1 x2 x3 b q) s := by
  rw [val_main_v10_apply, val_main_v9_apply, v3_at, v8_at]
  rfl

/-- The row's sum of exponentials, spread back over the row. -/
theorem v13_at (b : Fin 16) (q s : Fin 2048) :
    val_main_v13 (F := Ideal) x1 x2 x3 (ix3 b q s) = ∑ k : Fin 2048, expo (rsc x1 x2 x3 b q) k := by
  rw [val_main_v13_apply, val_main_v12_apply]
  have e : idx_main_v12 (idx_main_v13 (ix3 b q s)) = ix2 b q :=
    funext fun a => Fin.ext (by match a with | ⟨0, _⟩ => rfl | ⟨1, _⟩ => rfl)
  rw [e, val_main_v11_apply, val_main_cst_3_apply]
  show Ideal.ofBits .f32 0x00000000#32 + _ = _
  rw [Ideal.ofBits_zero_f32, zero_add]
  refine Finset.sum_congr rfl fun k _ => ?_
  have e' : idx_main_v11 (ix2 b q) k = ix3 b q k :=
    funext fun a => Fin.ext (by match a with | ⟨0, _⟩ => rfl | ⟨1, _⟩ => rfl | ⟨2, _⟩ => rfl)
  rw [e', v10_at]

/-- The attention weight at `(b, q, s)`. -/
theorem v14_at (b : Fin 16) (q s : Fin 2048) : val_main_v14 (F := Ideal) x1 x2 x3 (ix3 b q s) = attnAt x2 x1 x3 b q s := by
  rw [val_main_v14_apply, v10_at, v13_at]
  rfl

/-- The output at `(b, q, d)`. -/
theorem v15_at (b : Fin 16) (q : Fin 2048) (d : Fin 128) :
    val_main_v15 (F := Ideal) x0 x1 x2 x3 (ix3 b q d) = outAt x0 x2 x1 x3 b q d := by
  rw [val_main_v15_apply]
  unfold outAt
  refine Finset.sum_congr rfl fun k _ => ?_
  have e1 : lidx_main_v15 (ix3 b q d) k = ix3 b q k :=
    funext fun a => Fin.ext (by match a with | ⟨0, _⟩ => rfl | ⟨1, _⟩ => rfl | ⟨2, _⟩ => rfl)
  have e2 : ridx_main_v15 (ix3 b q d) k = ix3 b k d :=
    funext fun a => Fin.ext (by match a with | ⟨0, _⟩ => rfl | ⟨1, _⟩ => rfl | ⟨2, _⟩ => rfl)
  rw [e1, e2, v14_at]

/-- The reference's attention weights are `attnG` of the query, the keys and the mask. -/
theorem attn_eq : val_main_v14 (F := Ideal) x1 x2 x3 = attnG x2 x1 x3 :=
  funext fun i => by
    obtain ⟨b, q, s, rfl⟩ : ∃ (b : Fin 16) (q s : Fin 2048), i = ix3 b q s := ⟨i 0, i 1, i 2, eq_ix3 i⟩
    exact v14_at x1 x2 x3 b q s

/-- The reference's output is `outG` of the values, the query, the keys and the mask. -/
theorem out_eq : val_main_v15 (F := Ideal) x0 x1 x2 x3 = outG x0 x2 x1 x3 :=
  funext fun i => by
    obtain ⟨b, q, d, rfl⟩ : ∃ (b : Fin 16) (q : Fin 2048) (d : Fin 128), i = ix3 b q d := ⟨i 0, i 1, i 2, eq_ix3 i⟩
    exact v15_at x0 x1 x2 x3 b q d

end Cert.RefRows

end
-- ==== Proof.lean ====
/-
  Scaled dot-product attention with a boolean mask: a Pallas kernel against its jnp reference, on the extended reals.

  Both programs compute, for every batch `b` and query row `q`, the scores (Σ_d query[b,q,d] · key[b,s,d]) · c with the
  same f32 scale `c`, set them to -∞ where mask[b,q,s] holds, take the row's softmax (maximum from -∞, exponentials of
  the differences, their sum from zero, the quotient) — the attention weights, the second result — and contract the
  weights with value[b,·,d] — the first result. The kernel does this one block of 512 query rows at a time, on
  matrices it rounds to bf16 before each matrix product (the identity on exact values) and with the mask widened to
  32-bit words; the reference does it on whole arrays, taking one more maximum with -∞. Every entry of either result is
  the same expression of the same entries of the arguments (`Cert.Attention.attnG`, `outG`): the matrix unit's product
  into a zero accumulator and the host's contraction are the same finite sum, a lane maximum and the host's maximum the
  same fold, -∞ is the least element. No step uses that the inputs are finite.

  The kernel's side is `Cert.KernelArrays.run` (blocks: `Cert.KernelRows`), the reference's `Cert.RefRows.attn_eq` and
  `out_eq` over its generated run. The three frames are the generated ones; the idealized kernel is the kernel's own text.
-/
import proofs.«110951_j49074296324370_2_alg».proof.Defs
import proofs.«110951_j49074296324370_2_alg».proof.Proof.Gen.Kernel
import proofs.«110951_j49074296324370_2_alg».proof.Proof.Gen.Kernel.Skeleton
import proofs.«110951_j49074296324370_2_alg».proof.Proof.Gen.Kernel.Launch
import proofs.«110951_j49074296324370_2_alg».proof.Proof.Gen.Kernel.Points
import proofs.«110951_j49074296324370_2_alg».proof.Proof.Gen.Kernel.Frame
import proofs.«110951_j49074296324370_2_alg».proof.Proof.Gen.KernelIdeal
import proofs.«110951_j49074296324370_2_alg».proof.Proof.Gen.KernelIdeal.Skeleton
import proofs.«110951_j49074296324370_2_alg».proof.Proof.Gen.KernelIdeal.Launch
import proofs.«110951_j49074296324370_2_alg».proof.Proof.Gen.KernelIdeal.Points
import proofs.«110951_j49074296324370_2_alg».proof.Proof.Gen.KernelIdeal.Frame
import proofs.«110951_j49074296324370_2_alg».proof.Proof.Gen.KernelIdeal.Value
import proofs.«110951_j49074296324370_2_alg».proof.Proof.Gen.ReferenceIdeal
import proofs.«110951_j49074296324370_2_alg».proof.Proof.Gen.ReferenceIdeal.Run
import proofs.«110951_j49074296324370_2_alg».proof.Proof.Gen.ReferenceIdeal.Read
import proofs.«110951_j49074296324370_2_alg».proof.Proof.Gen.Pre_finite_inputs
import proofs.«110951_j49074296324370_2_alg».proof.Proof.KernelArrays
import proofs.«110951_j49074296324370_2_alg».proof.Proof.RefRows
import Idealize.ShloMosaic.Adequacy
import Idealize.ShloMosaic.Init

noncomputable section

namespace Cert.Proof

open Idealize.ShloMosaic Idealize.ShloMosaic.TcCoe Idealize.SL.Sem
open Cert.Attention Cert.KernelArrays

/-- The kernel as printed runs and leaves its arguments unchanged. -/
theorem frame_k : Cert.frame_Kernel := fun m ρ _ => Cert.Kernel.Gen.frame m ρ

/-- So does the kernel read on exact values. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the four arguments, the kernel ends with `outG` and `attnG` of its arguments, and the
    reference with the same two functions of the same arrays. -/
theorem algebraic : Cert.algebraic_KernelIdeal_ReferenceIdeal := by
  intro m ρ m' ρ' _ hagree
  refine ⟨fun c => outG (Va m c) (Qa m c) (Ka m c) (Ma m c), fun c => attnG (Qa m c) (Ka m c) (Ma m c),
    Cert.KernelArrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v15_eq _ _ _ _).trans ((Cert.RefRows.out_eq _ _ _ _).trans ?_)
    rw [(hagree c).1, (hagree c).2.1, (hagree c).2.2.1, (hagree c).2.2.2]
  · refine (Cert.ReferenceIdeal.Read.val_main_v14_eq _ _ _).trans ((Cert.RefRows.attn_eq _ _ _).trans ?_)
    rw [(hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
